-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S256x128 : Shape := ⟨2, ![256, 128]⟩
abbrev S256 : Shape := ⟨1, ![256]⟩
abbrev S256x1 : Shape := ⟨2, ![256, 1]⟩
abbrev S1x1 : Shape := ⟨2, ![1, 1]⟩

abbrev nBuf : Space → Nat
  | .hbm => 100
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S1600000x1, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S_, .f32⟩
  | .hbm, ⟨83, _⟩ => ⟨S256x128, .f32⟩
  | .hbm, ⟨84, _⟩ => ⟨S100000x1, .i32⟩
  | .hbm, ⟨85, _⟩ => ⟨S256x128, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S256, .f32⟩
  | .hbm, ⟨90, _⟩ => ⟨S100000x1, .i32⟩
  | .hbm, ⟨91, _⟩ => ⟨S256, .f32⟩
  | .hbm, ⟨92, _⟩ => ⟨S_, .f32⟩
  | .hbm, ⟨93, _⟩ => ⟨S256, .f32⟩
  | .hbm, ⟨94, _⟩ => ⟨S256, .f32⟩
  | .hbm, ⟨95, _⟩ => ⟨S256x1, .f32⟩
  | .hbm, ⟨96, _⟩ => ⟨S256x128, .f32⟩
  | .hbm, ⟨97, _⟩ => ⟨S256x128, .f32⟩
  | .hbm, ⟨98, _⟩ => ⟨S1x1, .f32⟩
  | .hbm, ⟨99, _⟩ => ⟨S256x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S256x128, .f32⟩
  | .local _ .vmem, ⟨29, _⟩ => ⟨S128x1, .f32⟩
  | .local _ .vmem, ⟨30, _⟩ => ⟨S1x1, .f32⟩
  | .local _ .vmem, ⟨31, _⟩ => ⟨S256x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x1.size a ≤ S256x1.size a
  hwx4_3 : ∀ i : grid4.Coords, EltTy.bits .f32 = 32 ∨ (Rect.block (s := S256x1) S256x1.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v71) S256x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S256x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000, .f32⟩
  | 60 => ⟨S100000x1, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S1600000x1, .f32⟩
  | 110 => ⟨S1600000x128, .f32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S100000, .f32⟩
  | 117 => ⟨S100000x1, .f32⟩
  | 118 => ⟨S100000x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S256x128, .f32⟩
  | 1 => ⟨S100000x1, .i32⟩
  | 2 => ⟨S256x128, .f32⟩
  | 3 => ⟨S_, .f32⟩
  | 4 => ⟨S100000, .f32⟩
  | 5 => ⟨S_, .f32⟩
  | 6 => ⟨S256, .f32⟩
  | 7 => ⟨S100000x1, .i32⟩
  | 8 => ⟨S256, .f32⟩
  | 9 => ⟨S_, .f32⟩
  | 10 => ⟨S256, .f32⟩
  | 11 => ⟨S256, .f32⟩
  | 12 => ⟨S256x1, .f32⟩
  | 13 => ⟨S256x128, .f32⟩
  | 14 => ⟨S256x128, .f32⟩
  | 15 => ⟨S256x1, .f32⟩
  | 16 => ⟨S1x1, .f32⟩
  | 17 => ⟨S256x1, .f32⟩
  | 18 => ⟨S256x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x1_S256x1_1_0_0_1_n_n_wf : DotDims.WF S256x128 S128x1 S256x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KernelRun.lean ====
/-
  The idealized kernel's run with its result named. The program is five pipelined regions among stretches of
  host operations; the buffer contents at the last segment boundary are a fold through all of them from the
  launch memory. Every weakly fair execution terminates with the result buffer holding that fold's value at
  the result's reference and every argument array as launched.
-/
import proofs.«133298_j60258391163406_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' run read against the final state: the last thread state holds every unscoped buffer at the last
    boundary's contents, so the result buffer is read there and each argument walks back to the launch memory. -/
theorem run : θ_run defs (onTc (τ := τ) (main (F := F))) ⟨m, fun _ => 0, ρ⟩ (fun r => ∀ c : Dev nD,
      r.2.mem ((c.tc : Thread nD τ).loc main_v73) = W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v73 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunValue

end
-- ==== Proof.Keep.lean ====
import proofs.«133298_j60258391163406_1_alg».proof.Proof.Gen.KernelIdeal.Frame
import Idealize.ShloMosaic.Lib.StableHlo.Run
import Mathlib.Tactic.FinCases

/-!
# Which buffers each segment of the run leaves alone

The run of `@main` is: host stretch 0, region 0, host stretch 1, regions 1 and 2, host stretch 3, region 3,
host stretch 4, region 4, with the buffer contents `W0 … W9` at the boundaries. A host stretch rewrites exactly
the result references of its operations; a region rewrites exactly its output array. So a buffer whose
reference is neither a later result nor a later output holds, at every later boundary, what it held at
region 0's entry.
-/

set_option maxRecDepth 16384

noncomputable section

namespace Cert.KernelIdeal.Keep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## The host stretches -/

/-- A reference of a list, as the one buffer it names, lies in the list's set of buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references the 35 operations of host stretch 0 write: each operation's result, in order. -/
def writes0 : List (Ref sig .tc) :=
  [main_v0, main_v1, main_v2, main_v3, main_cst, main_v4, main_cst_0, main_v5, main_v6, main_v7, main_cst_1,
   main_v8, main_v9, main_v10, main_v11, main_v12, main_c, main_v13, main_v14, main_c_2, main_v15, main_v16,
   main_v17, main_v18, main_v19, main_c_3, main_v20, main_v21, main_c_4, main_v22, main_v23, main_v24,
   main_v25, main_v26, main_v27]

/-- Every operation of host stretch 0 writes only a reference of `writes0`. -/
theorem host0_writes :
    (hostOps0 : List (HloOp τ sig (Elt F))).Forall fun op =>
      op.writes ⊆ (writes0.map (Proc.devRef (τ := τ) .tc)).toFinset := by
  simp only [hostOps0, List.Forall, StableHlo.nullary_writes, StableHlo.unary_writes, StableHlo.binary_writes,
    StableHlo.ternary_writes, StableHlo.quaternary_writes, StableHlo.reshape_writes]
  repeat' apply And.intro
  all_goals exact single_sub (by decide)

/-- Host stretch 0 leaves every buffer alone whose reference is not the result of one of its operations. -/
theorem host0_keep (V : Valuation τ sig (Elt F)) (r : Ref sig .tc) (hr : r ∉ writes0) :
    StableHlo.after hostOps0 V (Proc.devRef .tc r) = V (Proc.devRef .tc r) :=
  StableHlo.after_of_writes_sub hostOps0 V host0_writes hr

/-- The references the 17 operations of host stretch 1 write: each operation's result, in order. -/
def writes1 : List (Ref sig .tc) :=
  [main_c_5, main_v29, main_v30, main_c_6, main_v31, main_v32, main_v33, main_v34, main_v35, main_v36,
   main_v37, main_v38, main_cst_7, main_v39, main_v40, main_v41, main_v42]

/-- Every operation of host stretch 1 writes only a reference of `writes1`. -/
theorem host1_writes :
    (hostOps1 : List (HloOp τ sig (Elt F))).Forall fun op =>
      op.writes ⊆ (writes1.map (Proc.devRef (τ := τ) .tc)).toFinset := by
  simp only [hostOps1, List.Forall, StableHlo.nullary_writes, StableHlo.unary_writes, StableHlo.binary_writes,
    StableHlo.ternary_writes, StableHlo.quaternary_writes, StableHlo.reshape_writes]
  repeat' apply And.intro
  all_goals exact single_sub (by decide)

/-- Host stretch 1 leaves every buffer alone whose reference is not the result of one of its operations. -/
theorem host1_keep (V : Valuation τ sig (Elt F)) (r : Ref sig .tc) (hr : r ∉ writes1) :
    StableHlo.after hostOps1 V (Proc.devRef .tc r) = V (Proc.devRef .tc r) :=
  StableHlo.after_of_writes_sub hostOps1 V host1_writes hr

/-- The references the 17 operations of host stretch 3 write: each operation's result, in order. -/
def writes3 : List (Ref sig .tc) :=
  [main_c_8, main_v45, main_v46, main_c_9, main_v47, main_v48, main_v49, main_v50, main_v51, main_v52,
   main_v53, main_v54, main_cst_10, main_v55, main_v56, main_v57, main_v58]

/-- Every operation of host stretch 3 writes only a reference of `writes3`. -/
theorem host3_writes :
    (hostOps3 : List (HloOp τ sig (Elt F))).Forall fun op =>
      op.writes ⊆ (writes3.map (Proc.devRef (τ := τ) .tc)).toFinset := by
  simp only [hostOps3, List.Forall, StableHlo.nullary_writes, StableHlo.unary_writes, StableHlo.binary_writes,
    StableHlo.ternary_writes, StableHlo.quaternary_writes, StableHlo.reshape_writes]
  repeat' apply And.intro
  all_goals exact single_sub (by decide)

/-- Host stretch 3 leaves every buffer alone whose reference is not the result of one of its operations. -/
theorem host3_keep (V : Valuation τ sig (Elt F)) (r : Ref sig .tc) (hr : r ∉ writes3) :
    StableHlo.after hostOps3 V (Proc.devRef .tc r) = V (Proc.devRef .tc r) :=
  StableHlo.after_of_writes_sub hostOps3 V host3_writes hr

/-- The references the 17 operations of host stretch 4 write: each operation's result, in order. -/
def writes4 : List (Ref sig .tc) :=
  [main_cst_11, main_v60, main_v61, main_v62, main_cst_12, main_v63, main_cst_13, main_v64, main_v65,
   main_v66, main_cst_14, main_v67, main_v68, main_v69, main_v70, main_v71, main_v72]

/-- Every operation of host stretch 4 writes only a reference of `writes4`. -/
theorem host4_writes :
    (hostOps4 : List (HloOp τ sig (Elt F))).Forall fun op =>
      op.writes ⊆ (writes4.map (Proc.devRef (τ := τ) .tc)).toFinset := by
  simp only [hostOps4, List.Forall, StableHlo.nullary_writes, StableHlo.unary_writes, StableHlo.binary_writes,
    StableHlo.ternary_writes, StableHlo.quaternary_writes, StableHlo.reshape_writes]
  repeat' apply And.intro
  all_goals exact single_sub (by decide)

/-- Host stretch 4 leaves every buffer alone whose reference is not the result of one of its operations. -/
theorem host4_keep (V : Valuation τ sig (Elt F)) (r : Ref sig .tc) (hr : r ∉ writes4) :
    StableHlo.after hostOps4 V (Proc.devRef .tc r) = V (Proc.devRef .tc r) :=
  StableHlo.after_of_writes_sub hostOps4 V host4_writes hr

/-! ## The regions -/

/-- Region 0 leaves every buffer alone but its output array `main_v28`: an input array is read through its window
    and ends as it was entered, and a buffer that is no array of the region is not touched. -/
theorem reg0_keep (r : Ref sig .tc) (hr : r ≠ main_v28) :
    W2 m ρ c (Proc.devRef .tc r) = W1 m ρ c (Proc.devRef .tc r) := by
  by_cases h : ∃ w, Pipeline.arrRef spec0 w = r
  · obtain ⟨w, rfl⟩ := h
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact absurd rfl hr
  · exact W2_of_ne m ρ c r fun w e => h ⟨w, e⟩

/-- Region 1 leaves every buffer alone but its output array `main_v43`: an input array is read through its window
    and ends as it was entered, and a buffer that is no array of the region is not touched. -/
theorem reg1_keep (r : Ref sig .tc) (hr : r ≠ main_v43) :
    W4 m ρ c (Proc.devRef .tc r) = W3 m ρ c (Proc.devRef .tc r) := by
  by_cases h : ∃ w, Pipeline.arrRef spec1 w = r
  · obtain ⟨w, rfl⟩ := h
    fin_cases w
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact (W4_arr m ρ c 3).trans (((dat1 (V3 m ρ) c).arrAt_in 3 rfl _).trans (A_eq1 (V3 m ρ) c 3))
    · exact absurd rfl hr
  · exact W4_of_ne m ρ c r fun w e => h ⟨w, e⟩

/-- Region 2 leaves every buffer alone but its output array `main_v44`: an input array is read through its window
    and ends as it was entered, and a buffer that is no array of the region is not touched. -/
theorem reg2_keep (r : Ref sig .tc) (hr : r ≠ main_v44) :
    W5 m ρ c (Proc.devRef .tc r) = W4 m ρ c (Proc.devRef .tc r) := by
  by_cases h : ∃ w, Pipeline.arrRef spec2 w = r
  · obtain ⟨w, rfl⟩ := h
    fin_cases w
    · exact (W5_arr m ρ c 0).trans (((dat2 (V4 m ρ) c).arrAt_in 0 rfl _).trans (A_eq2 (V4 m ρ) c 0))
    · exact (W5_arr m ρ c 1).trans (((dat2 (V4 m ρ) c).arrAt_in 1 rfl _).trans (A_eq2 (V4 m ρ) c 1))
    · exact absurd rfl hr
  · exact W5_of_ne m ρ c r fun w e => h ⟨w, e⟩

/-- Region 3 leaves every buffer alone but its output array `main_v59`: an input array is read through its window
    and ends as it was entered, and a buffer that is no array of the region is not touched. -/
theorem reg3_keep (r : Ref sig .tc) (hr : r ≠ main_v59) :
    W7 m ρ c (Proc.devRef .tc r) = W6 m ρ c (Proc.devRef .tc r) := by
  by_cases h : ∃ w, Pipeline.arrRef spec3 w = r
  · obtain ⟨w, rfl⟩ := h
    fin_cases w
    · exact (W7_arr m ρ c 0).trans (((dat3 (V6 m ρ) c).arrAt_in 0 rfl _).trans (A_eq3 (V6 m ρ) c 0))
    · exact (W7_arr m ρ c 1).trans (((dat3 (V6 m ρ) c).arrAt_in 1 rfl _).trans (A_eq3 (V6 m ρ) c 1))
    · exact (W7_arr m ρ c 2).trans (((dat3 (V6 m ρ) c).arrAt_in 2 rfl _).trans (A_eq3 (V6 m ρ) c 2))
    · exact (W7_arr m ρ c 3).trans (((dat3 (V6 m ρ) c).arrAt_in 3 rfl _).trans (A_eq3 (V6 m ρ) c 3))
    · exact absurd rfl hr
  · exact W7_of_ne m ρ c r fun w e => h ⟨w, e⟩

/-- Region 4 leaves every buffer alone but its output array `main_v73`: an input array is read through its window
    and ends as it was entered, and a buffer that is no array of the region is not touched. -/
theorem reg4_keep (r : Ref sig .tc) (hr : r ≠ main_v73) :
    W9 m ρ c (Proc.devRef .tc r) = W8 m ρ c (Proc.devRef .tc r) := by
  by_cases h : ∃ w, Pipeline.arrRef spec4 w = r
  · obtain ⟨w, rfl⟩ := h
    fin_cases w
    · exact (W9_arr m ρ c 0).trans (((dat4 (V8 m ρ) c).arrAt_in 0 rfl _).trans (A_eq4 (V8 m ρ) c 0))
    · exact (W9_arr m ρ c 1).trans (((dat4 (V8 m ρ) c).arrAt_in 1 rfl _).trans (A_eq4 (V8 m ρ) c 1))
    · exact (W9_arr m ρ c 2).trans (((dat4 (V8 m ρ) c).arrAt_in 2 rfl _).trans (A_eq4 (V8 m ρ) c 2))
    · exact absurd rfl hr
  · exact W9_of_ne m ρ c r fun w e => h ⟨w, e⟩

/-! ## From region 0's entry to the end -/

/-- Every reference written after region 0's entry: the results of host stretches 1, 3 and 4 and the five
    regions' output arrays. -/
def laterWrites : List (Ref sig .tc) :=
  writes1 ++ writes3 ++ writes4 ++ [main_v28, main_v43, main_v44, main_v59, main_v73]

/-- A reference outside `laterWrites` is no result of host stretch 1. -/
theorem not_mem_writes1 {r : Ref sig .tc} (hr : r ∉ laterWrites) : r ∉ writes1 := fun h =>
  hr (List.mem_append_left _ (List.mem_append_left _ (List.mem_append_left _ h)))
/-- A reference outside `laterWrites` is no result of host stretch 3. -/
theorem not_mem_writes3 {r : Ref sig .tc} (hr : r ∉ laterWrites) : r ∉ writes3 := fun h =>
  hr (List.mem_append_left _ (List.mem_append_left _ (List.mem_append_right _ h)))
/-- A reference outside `laterWrites` is no result of host stretch 4. -/
theorem not_mem_writes4 {r : Ref sig .tc} (hr : r ∉ laterWrites) : r ∉ writes4 := fun h =>
  hr (List.mem_append_left _ (List.mem_append_right _ h))
/-- A reference outside `laterWrites` is no region's output array. -/
theorem not_mem_outs {r : Ref sig .tc} (hr : r ∉ laterWrites) :
    r ∉ [main_v28, main_v43, main_v44, main_v59, main_v73] := fun h =>
  hr (List.mem_append_right _ h)
theorem ne_v28 {r : Ref sig .tc} (hr : r ∉ laterWrites) : r ≠ main_v28 := fun h =>
  not_mem_outs hr (by subst h; decide)
theorem ne_v43 {r : Ref sig .tc} (hr : r ∉ laterWrites) : r ≠ main_v43 := fun h =>
  not_mem_outs hr (by subst h; decide)
theorem ne_v44 {r : Ref sig .tc} (hr : r ∉ laterWrites) : r ≠ main_v44 := fun h =>
  not_mem_outs hr (by subst h; decide)
theorem ne_v59 {r : Ref sig .tc} (hr : r ∉ laterWrites) : r ≠ main_v59 := fun h =>
  not_mem_outs hr (by subst h; decide)
theorem ne_v73 {r : Ref sig .tc} (hr : r ∉ laterWrites) : r ≠ main_v73 := fun h =>
  not_mem_outs hr (by subst h; decide)

variable (r : Ref sig .tc) (hr : r ∉ laterWrites)
include hr

/-- A buffer written by nothing after region 0's entry holds at region 0's exit what it held at the entry. -/
theorem stable2 : W2 m ρ c (Proc.devRef .tc r) = W1 m ρ c (Proc.devRef .tc r) :=
  reg0_keep m ρ c r (ne_v28 hr)
/-- … and after host stretch 1. -/
theorem stable3 : W3 m ρ c (Proc.devRef .tc r) = W1 m ρ c (Proc.devRef .tc r) :=
  (host1_keep (W2 m ρ c) r (not_mem_writes1 hr)).trans (stable2 m ρ c r hr)
/-- … and at region 1's exit. -/
theorem stable4 : W4 m ρ c (Proc.devRef .tc r) = W1 m ρ c (Proc.devRef .tc r) :=
  (reg1_keep m ρ c r (ne_v43 hr)).trans (stable3 m ρ c r hr)
/-- … and at region 2's exit. -/
theorem stable5 : W5 m ρ c (Proc.devRef .tc r) = W1 m ρ c (Proc.devRef .tc r) :=
  (reg2_keep m ρ c r (ne_v44 hr)).trans (stable4 m ρ c r hr)
/-- … and after host stretch 3. -/
theorem stable6 : W6 m ρ c (Proc.devRef .tc r) = W1 m ρ c (Proc.devRef .tc r) :=
  (host3_keep (W5 m ρ c) r (not_mem_writes3 hr)).trans (stable5 m ρ c r hr)
/-- … and at region 3's exit. -/
theorem stable7 : W7 m ρ c (Proc.devRef .tc r) = W1 m ρ c (Proc.devRef .tc r) :=
  (reg3_keep m ρ c r (ne_v59 hr)).trans (stable6 m ρ c r hr)
/-- … and after host stretch 4. -/
theorem stable8 : W8 m ρ c (Proc.devRef .tc r) = W1 m ρ c (Proc.devRef .tc r) :=
  (host4_keep (W7 m ρ c) r (not_mem_writes4 hr)).trans (stable7 m ρ c r hr)
/-- … and at region 4's exit, the end of the run. -/
theorem stable9 : W9 m ρ c (Proc.devRef .tc r) = W1 m ρ c (Proc.devRef .tc r) :=
  (reg4_keep m ρ c r (ne_v73 hr)).trans (stable8 m ρ c r hr)

omit hr

/-- The side condition is decided on a concrete reference. -/
example : main_v12 ∉ laterWrites := by decide

end Cert.KernelIdeal.Keep
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.RegionProducts.lean ====
/-
  The two row-blocked matrix products of the network.

  Each product region runs over twenty grid points; point `t` takes rows 5000·t … 5000·t + 4999 of the input array and
  the whole 128 × 128 weight, multiplies them into a zero accumulator and writes the 5000 × 128 result back as the same
  rows of the output array. Entry (p, q) of a block's result is the sum over k of the block's (p, k) times the weight's
  (k, q); a block's row p is the array's row 5000·t + p; the twenty blocks tile the 100000 rows. So the output array
  after the region is, entry by entry, row i₀ of the input array against column i₁ of the weight.
-/
import proofs.«133298_j60258391163406_1_alg».proof.Proof.Gen.KernelIdeal.Frame
import proofs.«133298_j60258391163406_1_alg».proof.Proof.LibPlainDot
import proofs.«133298_j60258391163406_1_alg».proof.Proof.LibKeepdims
import proofs.«133298_j60258391163406_1_alg».proof.Proof.LibRowBroadcasts
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Cert.KernelIdeal Cert.KernelIdeal.Gen Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Row `i 0` of `X` against column `i 1` of `W`. -/
def rowsTimes (X : FVec Ideal S100000x128 .f32) (W : FVec Ideal S128x128 .f32) : FVec Ideal S100000x128 .f32 :=
  fun i => ∑ k : Fin 128, X (ix2 (i 0) k) * W (ix2 k (i 1))

/-! ## Region 0 -/

/-- The body's stored value at row `p`, column `q` of the block: the block's row `p` against the weight's column `q`
    (the narrowing of an exact value to a shorter format does not change it). -/
theorem pay0_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact PlainDot.matmul_zero_apply Facts₀.dot_S5000x128_S128x128_S5000x128_1_0_0_1_n_n_wf none _ _ p q

/-- The index maps over the grid: the input rows' block moves with the output's, the weight's block stays, and the
    output's row-block index runs over the twenty blocks. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block is some point's. -/
theorem idx_onto0 : ∀ (q0 : Fin 20), ∃ t : Fin cfg0.N, win0_2.index t = ![q0.val, 0] :=
  (by decide +kernel : ∀ (q0 : Fin 20), ∃ t : Fin grid0.N, win0_2.index t = ![q0.val, 0])

/-- What point `t` writes back is block `t` of the whole product of the arrays the region finds. -/
theorem flushed0 (c : Dev nD) (t : Fin cfg0.N) :
    (dat0 V c).flushed 2 t = ((cfg0.win 2).blk t).view.read (Elt Ideal)
      (rowsTimes (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  obtain ⟨e0, e1, e2, e3, e4, e5⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = rowsTimes (V c (Pipeline.arrRef spec0 0)) (V c (Pipeline.arrRef spec0 1)) (((cfg0.win 2).blk t).view.emb (ix2 p q))
  refine (pay0_apply _ _ p q).trans ?_
  unfold rowsTimes
  refine Finset.sum_congr rfl fun k _ => ?_
  have hx : iblk0 V c 0 t (ix2 p k)
      = V c (Pipeline.arrRef spec0 0) (ix2 ((((cfg0.win 2).blk t).view.emb (ix2 p q)) 0) k) := by
    show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : iblk0 V c 1 t (ix2 k q)
      = V c (Pipeline.arrRef spec0 1) (ix2 k ((((cfg0.win 2).blk t).view.emb (ix2 p q)) 1)) := by
    show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An index is in point `t`'s output block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v28).slice (win0_2.rect t)).set ↔ _
  rw [View.set_slice_whole, Rect.mem_set_unit]
  exact Iff.rfl

/-- Row `r` lies in the block of the point whose row-block index is `r / 5000`: the blocks cover the array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the whole product of the two arrays the region finds. -/
theorem final0 (c : Dev nD) :
    (dat0 V c).arrAt 2 cfg0.N = rowsTimes (V c (Pipeline.arrRef spec0 0)) (V c (Pipeline.arrRef spec0 1)) :=
  (dat0 V c).arrAt_eq_of_cover 2 _ (fun t _ => flushed0 V c t) cover0

/-! ## Region 2 -/

/-- The body's stored value at row `p`, column `q` of the block: the block's row `p` against the weight's column `q`
    (the narrowing of an exact value to a shorter format does not change it). -/
theorem pay2_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  refine (PlainDot.matmul_zero_apply Facts₀.dot_S5000x128_S128x128_S5000x128_1_0_0_1_n_n_wf none
    (truncf .bf16 (shapeCast S5000x128 x shapeCasts_S5000x128_S5000x128) bitsLt_bf16_f32) (truncf .bf16 w bitsLt_bf16_f32) p q).trans ?_
  refine Finset.sum_congr rfl fun k _ => ?_
  show shapeCast S5000x128 x shapeCasts_S5000x128_S5000x128 (ix2 p k) * w (ix2 k q) = _
  rw [shapeCast_self]

/-- The index maps over the grid: the input rows' block moves with the output's, the weight's block stays, and the
    output's row-block index runs over the twenty blocks. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every row block is some point's. -/
theorem idx_onto2 : ∀ (q0 : Fin 20), ∃ t : Fin cfg2.N, win2_2.index t = ![q0.val, 0] :=
  (by decide +kernel : ∀ (q0 : Fin 20), ∃ t : Fin grid2.N, win2_2.index t = ![q0.val, 0])

/-- What point `t` writes back is block `t` of the whole product of the arrays the region finds. -/
theorem flushed2 (c : Dev nD) (t : Fin cfg2.N) :
    (dat2 V c).flushed 2 t = ((cfg2.win 2).blk t).view.read (Elt Ideal)
      (rowsTimes (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  obtain ⟨e0, e1, e2, e3, e4, e5⟩ := idx_facts2 t
  funext j
  obtain ⟨p, q, rfl⟩ : ∃ (p : Fin 5000) (q : Fin 128), j = ix2 p q := ⟨j 0, j 1, eq_ix2 j⟩
  show k2_pay1 (iblk2 V c 0 t) (iblk2 V c 1 t) (ix2 p q)
    = rowsTimes (V c (Pipeline.arrRef spec2 0)) (V c (Pipeline.arrRef spec2 1)) (((cfg2.win 2).blk t).view.emb (ix2 p q))
  refine (pay2_apply _ _ p q).trans ?_
  unfold rowsTimes
  refine Finset.sum_congr rfl fun k _ => ?_
  have hx : iblk2 V c 0 t (ix2 p k)
      = V c (Pipeline.arrRef spec2 0) (ix2 ((((cfg2.win 2).blk t).view.emb (ix2 p q)) 0) k) := by
    show V c (Pipeline.arrRef spec2 0) (((cfg2.win 0).blk t).view.emb (ix2 p k)) = _
    refine congrArg (V c (Pipeline.arrRef spec2 0)) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hw : iblk2 V c 1 t (ix2 k q)
      = V c (Pipeline.arrRef spec2 1) (ix2 k ((((cfg2.win 2).blk t).view.emb (ix2 p q)) 1)) := by
    show V c (Pipeline.arrRef spec2 1) (((cfg2.win 1).blk t).view.emb (ix2 k q)) = _
    refine congrArg (V c (Pipeline.arrRef spec2 1)) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [hx, hw]

/-- An index is in point `t`'s output block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v44).slice (win2_2.rect t)).set ↔ _
  rw [View.set_slice_whole, Rect.mem_set_unit]
  exact Iff.rfl

/-- Row `r` lies in the block of the point whose row-block index is `r / 5000`: the blocks cover the array. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the whole product of the two arrays the region finds. -/
theorem final2 (c : Dev nD) :
    (dat2 V c).arrAt 2 cfg2.N = rowsTimes (V c (Pipeline.arrRef spec2 0)) (V c (Pipeline.arrRef spec2 1)) :=
  (dat2 V c).arrAt_eq_of_cover 2 _ (fun t _ => flushed2 V c t) cover2

end Cert.KernelIdeal.Regions

end
-- ==== Proof.RegionCombines.lean ====
/-
  The two per-node combine regions of the network.

  Each runs over twenty grid points; point `t` takes rows 5000·t … 5000·t + 4999 of the aggregated messages, of the
  layer's product and of the 100000 × 1 column of squared inverse-root degrees, and the whole 1 × 128 bias row, and
  writes back max(agg + h · d + b, 0) as the same rows of the output array, the column read at the entry's row and the
  bias at its column. The twenty blocks tile the 100000 rows, so the output array after the region is that
  expression of the four arrays entry by entry.
-/
import proofs.«133298_j60258391163406_1_alg».proof.Proof.Gen.KernelIdeal.Frame
import proofs.«133298_j60258391163406_1_alg».proof.Proof.LibPlainDot
import proofs.«133298_j60258391163406_1_alg».proof.Proof.LibKeepdims
import proofs.«133298_j60258391163406_1_alg».proof.Proof.LibRowBroadcasts
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Cert.KernelIdeal Cert.KernelIdeal.Gen Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- max(agg + h · d + b, 0) at entry `i`: the column `D` read at row `i 0`, the row `B` at column `i 1`. -/
def combineAt (A H : FVec Ideal S100000x128 .f32) (D : FVec Ideal S100000x1 .f32) (B : FVec Ideal S1x128 .f32) :
    FVec Ideal S100000x128 .f32 :=
  fun i => FloatOps.maximumf (FloatOps.addf (FloatOps.addf (A i) (FloatOps.mulf (H i) (D (ix2 (i 0) (0 : Fin 1)))))
    (B (ix2 (0 : Fin 1) (i 1)))) (FloatOps.ofBits .f32 0x00000000#32)

/-! ## Region 1 -/

/-- The body's stored value at (p, q) of the block: the same-shape casts are the identity, the 5000 × 1 column
    is read at row p, the 1 × 128 row at column q. -/
theorem pay1_apply (x0 x2 : Vec Ideal S5000x128 .f32) (x4 : Vec Ideal S5000x1 .f32) (x6 : Vec Ideal S1x128 .f32)
    (p : Fin 5000) (q : Fin 128) :
    k1_pay1 (F := Ideal) x0 x2 x4 x6 (ix2 p q)
      = FloatOps.maximumf (FloatOps.addf (FloatOps.addf (x0 (ix2 p q)) (FloatOps.mulf (x2 (ix2 p q)) (x4 (ix2 p (0 : Fin 1)))))
          (x6 (ix2 (0 : Fin 1) q))) (FloatOps.ofBits .f32 0x00000000#32) := by
  unfold k1_pay1
  simp only [shapeCast_self]
  show FloatOps.maximumf (F := Ideal) (φ := .f32) (FloatOps.addf (F := Ideal) (φ := .f32) (FloatOps.addf (F := Ideal) (φ := .f32) (x0 (ix2 p q))
      (FloatOps.mulf (F := Ideal) (φ := .f32) (x2 (ix2 p q)) (broadcastTo S5000x128 x4 broadcasts_S5000x1_S5000x128 (ix2 p q))))
      (broadcastTo S5000x128 x6 broadcasts_S1x128_S5000x128 (ix2 p q))) (Scalar.ofBits .f32 0x00000000#32) = _
  rw [Keepdims.bcastCol_apply, Rows.bcastRow_apply]

/-- The index maps over the grid: the three row-blocked inputs move with the output, the bias row stays. -/
theorem idx_facts1 : ∀ t : Fin cfg1.N, win1_0.index t (0 : Fin 2) = win1_4.index t (0 : Fin 2)
    ∧ win1_0.index t (1 : Fin 2) = 0 ∧ win1_1.index t (0 : Fin 2) = win1_4.index t (0 : Fin 2)
    ∧ win1_1.index t (1 : Fin 2) = 0 ∧ win1_2.index t (0 : Fin 2) = win1_4.index t (0 : Fin 2)
    ∧ win1_2.index t (1 : Fin 2) = 0 ∧ win1_3.index t (0 : Fin 2) = 0 ∧ win1_3.index t (1 : Fin 2) = 0
    ∧ win1_4.index t (1 : Fin 2) = 0 ∧ win1_4.index t (0 : Fin 2) ≤ 19 :=
  (by decide +kernel : ∀ t : Fin grid1.N, _)

/-- Every row block is some point's. -/
theorem idx_onto1 : ∀ (q0 : Fin 20), ∃ t : Fin cfg1.N, win1_4.index t = ![q0.val, 0] :=
  (by decide +kernel : ∀ (q0 : Fin 20), ∃ t : Fin grid1.N, win1_4.index t = ![q0.val, 0])

/-- Input window 0's block at point `t` read where the output block's entry (p, q) needs it. -/
theorem read1_0 (c : Dev nD) (t : Fin cfg1.N) (p : Fin 5000) (q : Fin 128) :
    iblk1 V c 0 t (ix2 p q)
      = V c (Pipeline.arrRef spec1 0) (((cfg1.win 4).blk t).view.emb (ix2 p q)) := by
  obtain ⟨e0, e1, e2, e3, e4, e5, e6, e7, e8, e9⟩ := idx_facts1 t
  show V c (Pipeline.arrRef spec1 0) (((cfg1.win 0).blk t).view.emb (ix2 p q)) = _
  refine congrArg (V c (Pipeline.arrRef spec1 0)) (funext fun a => Fin.ext ?_)
  match a with
  | ⟨0, _⟩ => show win1_0.index t (0 : Fin 2) * 5000 + 1 * p.val = win1_4.index t (0 : Fin 2) * 5000 + 1 * p.val; omega
  | ⟨1, _⟩ => show win1_0.index t (1 : Fin 2) * 128 + 1 * q.val = win1_4.index t (1 : Fin 2) * 128 + 1 * q.val; omega

/-- Input window 1's block at point `t` read where the output block's entry (p, q) needs it. -/
theorem read1_1 (c : Dev nD) (t : Fin cfg1.N) (p : Fin 5000) (q : Fin 128) :
    iblk1 V c 1 t (ix2 p q)
      = V c (Pipeline.arrRef spec1 1) (((cfg1.win 4).blk t).view.emb (ix2 p q)) := by
  obtain ⟨e0, e1, e2, e3, e4, e5, e6, e7, e8, e9⟩ := idx_facts1 t
  show V c (Pipeline.arrRef spec1 1) (((cfg1.win 1).blk t).view.emb (ix2 p q)) = _
  refine congrArg (V c (Pipeline.arrRef spec1 1)) (funext fun a => Fin.ext ?_)
  match a with
  | ⟨0, _⟩ => show win1_1.index t (0 : Fin 2) * 5000 + 1 * p.val = win1_4.index t (0 : Fin 2) * 5000 + 1 * p.val; omega
  | ⟨1, _⟩ => show win1_1.index t (1 : Fin 2) * 128 + 1 * q.val = win1_4.index t (1 : Fin 2) * 128 + 1 * q.val; omega

/-- Input window 2's block at point `t` read where the output block's entry (p, q) needs it. -/
theorem read1_2 (c : Dev nD) (t : Fin cfg1.N) (p : Fin 5000) (q : Fin 128) :
    iblk1 V c 2 t (ix2 p (0 : Fin 1))
      = V c (Pipeline.arrRef spec1 2) (ix2 ((((cfg1.win 4).blk t).view.emb (ix2 p q)) 0) (0 : Fin 1)) := by
  obtain ⟨e0, e1, e2, e3, e4, e5, e6, e7, e8, e9⟩ := idx_facts1 t
  show V c (Pipeline.arrRef spec1 2) (((cfg1.win 2).blk t).view.emb (ix2 p (0 : Fin 1))) = _
  refine congrArg (V c (Pipeline.arrRef spec1 2)) (funext fun a => Fin.ext ?_)
  match a with
  | ⟨0, _⟩ => show win1_2.index t (0 : Fin 2) * 5000 + 1 * p.val = win1_4.index t (0 : Fin 2) * 5000 + 1 * p.val; omega
  | ⟨1, _⟩ => show win1_2.index t (1 : Fin 2) * 1 + 1 * 0 = 0; omega

/-- Input window 3's block at point `t` read where the output block's entry (p, q) needs it. -/
theorem read1_3 (c : Dev nD) (t : Fin cfg1.N) (p : Fin 5000) (q : Fin 128) :
    iblk1 V c 3 t (ix2 (0 : Fin 1) q)
      = V c (Pipeline.arrRef spec1 3) (ix2 (0 : Fin 1) ((((cfg1.win 4).blk t).view.emb (ix2 p q)) 1)) := by
  obtain ⟨e0, e1, e2, e3, e4, e5, e6, e7, e8, e9⟩ := idx_facts1 t
  show V c (Pipeline.arrRef spec1 3) (((cfg1.win 3).blk t).view.emb (ix2 (0 : Fin 1) q)) = _
  refine congrArg (V c (Pipeline.arrRef spec1 3)) (funext fun a => Fin.ext ?_)
  match a with
  | ⟨0, _⟩ => show win1_3.index t (0 : Fin 2) * 1 + 1 * 0 = 0; omega
  | ⟨1, _⟩ => show win1_3.index t (1 : Fin 2) * 128 + 1 * q.val = win1_4.index t (1 : Fin 2) * 128 + 1 * q.val; omega

/-- What point `t` writes back is block `t` of the whole combine of the arrays the region finds. -/
theorem flushed1 (c : Dev nD) (t : Fin cfg1.N) :
    (dat1 V c).flushed 4 t = ((cfg1.win 4).blk t).view.read (Elt Ideal)
      (combineAt (V c (Pipeline.arrRef spec1 0)) (V c (Pipeline.arrRef spec1 1))
        (V c (Pipeline.arrRef spec1 2)) (V c (Pipeline.arrRef spec1 3))) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S5000x1) zeroOffsets, View.ld_unit_zero (S := S1x128) zeroOffsets]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (ix2 p q)
    = combineAt (V c (Pipeline.arrRef spec1 0)) (V c (Pipeline.arrRef spec1 1))
        (V c (Pipeline.arrRef spec1 2)) (V c (Pipeline.arrRef spec1 3)) (((cfg1.win 4).blk t).view.emb (ix2 p q))
  refine (pay1_apply _ _ _ _ p q).trans ?_
  unfold combineAt
  rw [read1_0 V c t p q, read1_1 V c t p q, read1_2 V c t p q, read1_3 V c t p q]

/-- An index is in point `t`'s output block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v43).slice (win1_4.rect t)).set ↔ _
  rw [View.set_slice_whole, Rect.mem_set_unit]
  exact Iff.rfl

/-- Row `r` lies in the block of the point whose row-block index is `r / 5000`: the blocks cover the array. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: the whole combine of the four arrays the region finds. -/
theorem final1 (c : Dev nD) :
    (dat1 V c).arrAt 4 cfg1.N = combineAt (V c (Pipeline.arrRef spec1 0)) (V c (Pipeline.arrRef spec1 1))
      (V c (Pipeline.arrRef spec1 2)) (V c (Pipeline.arrRef spec1 3)) :=
  (dat1 V c).arrAt_eq_of_cover 4 _ (fun t _ => flushed1 V c t) cover1

/-! ## Region 3 -/

/-- The body's stored value at (p, q) of the block: the same-shape casts are the identity, the 5000 × 1 column
    is read at row p, the 1 × 128 row at column q. -/
theorem pay3_apply (x0 x2 : Vec Ideal S5000x128 .f32) (x4 : Vec Ideal S5000x1 .f32) (x6 : Vec Ideal S1x128 .f32)
    (p : Fin 5000) (q : Fin 128) :
    k3_pay1 (F := Ideal) x0 x2 x4 x6 (ix2 p q)
      = FloatOps.maximumf (FloatOps.addf (FloatOps.addf (x0 (ix2 p q)) (FloatOps.mulf (x2 (ix2 p q)) (x4 (ix2 p (0 : Fin 1)))))
          (x6 (ix2 (0 : Fin 1) q))) (FloatOps.ofBits .f32 0x00000000#32) := by
  unfold k3_pay1
  simp only [shapeCast_self]
  show FloatOps.maximumf (F := Ideal) (φ := .f32) (FloatOps.addf (F := Ideal) (φ := .f32) (FloatOps.addf (F := Ideal) (φ := .f32) (x0 (ix2 p q))
      (FloatOps.mulf (F := Ideal) (φ := .f32) (x2 (ix2 p q)) (broadcastTo S5000x128 x4 broadcasts_S5000x1_S5000x128 (ix2 p q))))
      (broadcastTo S5000x128 x6 broadcasts_S1x128_S5000x128 (ix2 p q))) (Scalar.ofBits .f32 0x00000000#32) = _
  rw [Keepdims.bcastCol_apply, Rows.bcastRow_apply]

/-- The index maps over the grid: the three row-blocked inputs move with the output, the bias row stays. -/
theorem idx_facts3 : ∀ t : Fin cfg3.N, win3_0.index t (0 : Fin 2) = win3_4.index t (0 : Fin 2)
    ∧ win3_0.index t (1 : Fin 2) = 0 ∧ win3_1.index t (0 : Fin 2) = win3_4.index t (0 : Fin 2)
    ∧ win3_1.index t (1 : Fin 2) = 0 ∧ win3_2.index t (0 : Fin 2) = win3_4.index t (0 : Fin 2)
    ∧ win3_2.index t (1 : Fin 2) = 0 ∧ win3_3.index t (0 : Fin 2) = 0 ∧ win3_3.index t (1 : Fin 2) = 0
    ∧ win3_4.index t (1 : Fin 2) = 0 ∧ win3_4.index t (0 : Fin 2) ≤ 19 :=
  (by decide +kernel : ∀ t : Fin grid3.N, _)

/-- Every row block is some point's. -/
theorem idx_onto3 : ∀ (q0 : Fin 20), ∃ t : Fin cfg3.N, win3_4.index t = ![q0.val, 0] :=
  (by decide +kernel : ∀ (q0 : Fin 20), ∃ t : Fin grid3.N, win3_4.index t = ![q0.val, 0])

/-- Input window 0's block at point `t` read where the output block's entry (p, q) needs it. -/
theorem read3_0 (c : Dev nD) (t : Fin cfg3.N) (p : Fin 5000) (q : Fin 128) :
    iblk3 V c 0 t (ix2 p q)
      = V c (Pipeline.arrRef spec3 0) (((cfg3.win 4).blk t).view.emb (ix2 p q)) := by
  obtain ⟨e0, e1, e2, e3, e4, e5, e6, e7, e8, e9⟩ := idx_facts3 t
  show V c (Pipeline.arrRef spec3 0) (((cfg3.win 0).blk t).view.emb (ix2 p q)) = _
  refine congrArg (V c (Pipeline.arrRef spec3 0)) (funext fun a => Fin.ext ?_)
  match a with
  | ⟨0, _⟩ => show win3_0.index t (0 : Fin 2) * 5000 + 1 * p.val = win3_4.index t (0 : Fin 2) * 5000 + 1 * p.val; omega
  | ⟨1, _⟩ => show win3_0.index t (1 : Fin 2) * 128 + 1 * q.val = win3_4.index t (1 : Fin 2) * 128 + 1 * q.val; omega

/-- Input window 1's block at point `t` read where the output block's entry (p, q) needs it. -/
theorem read3_1 (c : Dev nD) (t : Fin cfg3.N) (p : Fin 5000) (q : Fin 128) :
    iblk3 V c 1 t (ix2 p q)
      = V c (Pipeline.arrRef spec3 1) (((cfg3.win 4).blk t).view.emb (ix2 p q)) := by
  obtain ⟨e0, e1, e2, e3, e4, e5, e6, e7, e8, e9⟩ := idx_facts3 t
  show V c (Pipeline.arrRef spec3 1) (((cfg3.win 1).blk t).view.emb (ix2 p q)) = _
  refine congrArg (V c (Pipeline.arrRef spec3 1)) (funext fun a => Fin.ext ?_)
  match a with
  | ⟨0, _⟩ => show win3_1.index t (0 : Fin 2) * 5000 + 1 * p.val = win3_4.index t (0 : Fin 2) * 5000 + 1 * p.val; omega
  | ⟨1, _⟩ => show win3_1.index t (1 : Fin 2) * 128 + 1 * q.val = win3_4.index t (1 : Fin 2) * 128 + 1 * q.val; omega

/-- Input window 2's block at point `t` read where the output block's entry (p, q) needs it. -/
theorem read3_2 (c : Dev nD) (t : Fin cfg3.N) (p : Fin 5000) (q : Fin 128) :
    iblk3 V c 2 t (ix2 p (0 : Fin 1))
      = V c (Pipeline.arrRef spec3 2) (ix2 ((((cfg3.win 4).blk t).view.emb (ix2 p q)) 0) (0 : Fin 1)) := by
  obtain ⟨e0, e1, e2, e3, e4, e5, e6, e7, e8, e9⟩ := idx_facts3 t
  show V c (Pipeline.arrRef spec3 2) (((cfg3.win 2).blk t).view.emb (ix2 p (0 : Fin 1))) = _
  refine congrArg (V c (Pipeline.arrRef spec3 2)) (funext fun a => Fin.ext ?_)
  match a with
  | ⟨0, _⟩ => show win3_2.index t (0 : Fin 2) * 5000 + 1 * p.val = win3_4.index t (0 : Fin 2) * 5000 + 1 * p.val; omega
  | ⟨1, _⟩ => show win3_2.index t (1 : Fin 2) * 1 + 1 * 0 = 0; omega

/-- Input window 3's block at point `t` read where the output block's entry (p, q) needs it. -/
theorem read3_3 (c : Dev nD) (t : Fin cfg3.N) (p : Fin 5000) (q : Fin 128) :
    iblk3 V c 3 t (ix2 (0 : Fin 1) q)
      = V c (Pipeline.arrRef spec3 3) (ix2 (0 : Fin 1) ((((cfg3.win 4).blk t).view.emb (ix2 p q)) 1)) := by
  obtain ⟨e0, e1, e2, e3, e4, e5, e6, e7, e8, e9⟩ := idx_facts3 t
  show V c (Pipeline.arrRef spec3 3) (((cfg3.win 3).blk t).view.emb (ix2 (0 : Fin 1) q)) = _
  refine congrArg (V c (Pipeline.arrRef spec3 3)) (funext fun a => Fin.ext ?_)
  match a with
  | ⟨0, _⟩ => show win3_3.index t (0 : Fin 2) * 1 + 1 * 0 = 0; omega
  | ⟨1, _⟩ => show win3_3.index t (1 : Fin 2) * 128 + 1 * q.val = win3_4.index t (1 : Fin 2) * 128 + 1 * q.val; omega

/-- What point `t` writes back is block `t` of the whole combine of the arrays the region finds. -/
theorem flushed3 (c : Dev nD) (t : Fin cfg3.N) :
    (dat3 V c).flushed 4 t = ((cfg3.win 4).blk t).view.read (Elt Ideal)
      (combineAt (V c (Pipeline.arrRef spec3 0)) (V c (Pipeline.arrRef spec3 1))
        (V c (Pipeline.arrRef spec3 2)) (V c (Pipeline.arrRef spec3 3))) := by
  show (cfg3.win 4).cut (grid3.coords t) ((dat3 V c).after 4 t) = _
  rw [after3_4]
  unfold out3_4
  rw [View.canon_unit_zero zeroOffsets]
  simp only [View.ld_unit_zero (S := S5000x128) zeroOffsets, View.ld_unit_zero (S := S5000x1) zeroOffsets, View.ld_unit_zero (S := S1x128) zeroOffsets]
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (iblk3 V c 3 t) (ix2 p q)
    = combineAt (V c (Pipeline.arrRef spec3 0)) (V c (Pipeline.arrRef spec3 1))
        (V c (Pipeline.arrRef spec3 2)) (V c (Pipeline.arrRef spec3 3)) (((cfg3.win 4).blk t).view.emb (ix2 p q))
  refine (pay3_apply _ _ _ _ p q).trans ?_
  unfold combineAt
  rw [read3_0 V c t p q, read3_1 V c t p q, read3_2 V c t p q, read3_3 V c t p q]

/-- An index is in point `t`'s output block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v59).slice (win3_4.rect t)).set ↔ _
  rw [View.set_slice_whole, Rect.mem_set_unit]
  exact Iff.rfl

/-- Row `r` lies in the block of the point whose row-block index is `r / 5000`: the blocks cover the array. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := idx_onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The output array after the region: the whole combine of the four arrays the region finds. -/
theorem final3 (c : Dev nD) :
    (dat3 V c).arrAt 4 cfg3.N = combineAt (V c (Pipeline.arrRef spec3 0)) (V c (Pipeline.arrRef spec3 1))
      (V c (Pipeline.arrRef spec3 2)) (V c (Pipeline.arrRef spec3 3)) :=
  (dat3 V c).arrAt_eq_of_cover 4 _ (fun t _ => flushed3 V c t) cover3

end Cert.KernelIdeal.Regions

end
-- ==== Proof.RegionHead.lean ====
/-
  The linear head.

  The region has one grid point; every window's block is its whole array. The body multiplies the 256 × 128 pooled
  features by the 128 × 1 weight into a zero accumulator and adds the 1 × 1 bias repeated down the 256 rows, so the
  output array after the region is, at (p, q), the sum over k of the features' (p, k) times the weight's (k, q), plus
  the bias entry.
-/
import proofs.«133298_j60258391163406_1_alg».proof.Proof.Gen.KernelIdeal.Frame
import proofs.«133298_j60258391163406_1_alg».proof.Proof.LibPlainDot
import proofs.«133298_j60258391163406_1_alg».proof.Proof.LibKeepdims
import proofs.«133298_j60258391163406_1_alg».proof.Proof.LibRowBroadcasts
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Cert.KernelIdeal Cert.KernelIdeal.Gen Cert.Lib
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeroOffsets4 : (![0, 0] : Fin 2 → Nat) = fun _ => 0 := funext fun a => by fin_cases a <;> rfl

/-- Row `i 0` of `P` against column `i 1` of `W`, plus the bias row's entry at that column. -/
def headAt (P : FVec Ideal S256x128 .f32) (W : FVec Ideal S128x1 .f32) (B : FVec Ideal S1x1 .f32) : FVec Ideal S256x1 .f32 :=
  fun i => FloatOps.addf (∑ k : Fin 128, P (ix2 (i 0) k) * W (ix2 k (i 1))) (B (ix2 (0 : Fin 1) (i 1)))

/-- The body's stored value at (p, q): the product into the zero accumulator is the plain sum, the narrowing of
    an exact value changes nothing, the same-shape casts are the identity, the bias row is read at column q. -/
theorem pay4_apply (x : Vec Ideal S256x128 .f32) (w : Vec Ideal S128x1 .f32) (b : Vec Ideal S1x1 .f32) (p : Fin 256) (q : Fin 1) :
    k4_pay1 (F := Ideal) x w b (ix2 p q)
      = FloatOps.addf (∑ k : Fin 128, x (ix2 p k) * w (ix2 k q)) (b (ix2 (0 : Fin 1) q)) := by
  unfold k4_pay1
  have h1 := PlainDot.matmul_zero_apply Facts₀.dot_S256x128_S128x1_S256x1_1_0_0_1_n_n_wf none
    (truncf .bf16 (shapeCast S256x128 x shapeCasts_S256x128_S256x128) bitsLt_bf16_f32) (truncf .bf16 w bitsLt_bf16_f32) p q
  have h2 := Rows.bcastRow_apply (a := 256) (shapeCast S1x1 b shapeCasts_S1x1_S1x1) broadcasts_S1x1_S256x1 p q
  refine (congrArg₂ (FloatOps.addf (F := Ideal) (φ := .f32)) h1 h2).trans ?_
  simp only [shapeCast_self]
  rfl

/-- Every window's one block sits at block index (0, 0). -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled features' block read where the output's entry (p, q) needs it: row p, column k. -/
theorem read4_0 (c : Dev nD) (t : Fin cfg4.N) (p : Fin 256) (q : Fin 1) (k : Fin 128) :
    iblk4 V c 0 t (ix2 p k)
      = V c (Pipeline.arrRef spec4 0) (ix2 ((((cfg4.win 3).blk t).view.emb (ix2 p q)) 0) k) := by
  obtain ⟨e0, e1, e2, e3, e4, e5, e6, e7⟩ := idx_facts4 t
  show V c (Pipeline.arrRef spec4 0) (((cfg4.win 0).blk t).view.emb (ix2 p k)) = _
  refine congrArg (V c (Pipeline.arrRef spec4 0)) (funext fun a => Fin.ext ?_)
  match a with
  | ⟨0, _⟩ => show win4_0.index t (0 : Fin 2) * 256 + 1 * p.val = win4_3.index t (0 : Fin 2) * 256 + 1 * p.val; omega
  | ⟨1, _⟩ => show win4_0.index t (1 : Fin 2) * 128 + 1 * k.val = k.val; omega

/-- The weight's block read where the output's entry (p, q) needs it: row k, column q. -/
theorem read4_1 (c : Dev nD) (t : Fin cfg4.N) (p : Fin 256) (q : Fin 1) (k : Fin 128) :
    iblk4 V c 1 t (ix2 k q)
      = V c (Pipeline.arrRef spec4 1) (ix2 k ((((cfg4.win 3).blk t).view.emb (ix2 p q)) 1)) := by
  obtain ⟨e0, e1, e2, e3, e4, e5, e6, e7⟩ := idx_facts4 t
  show V c (Pipeline.arrRef spec4 1) (((cfg4.win 1).blk t).view.emb (ix2 k q)) = _
  refine congrArg (V c (Pipeline.arrRef spec4 1)) (funext fun a => Fin.ext ?_)
  match a with
  | ⟨0, _⟩ => show win4_1.index t (0 : Fin 2) * 128 + 1 * k.val = k.val; omega
  | ⟨1, _⟩ => show win4_1.index t (1 : Fin 2) * 1 + 1 * q.val = win4_3.index t (1 : Fin 2) * 1 + 1 * q.val; omega

/-- The bias row's block read where the output's entry (p, q) needs it: column q. -/
theorem read4_2 (c : Dev nD) (t : Fin cfg4.N) (p : Fin 256) (q : Fin 1) :
    iblk4 V c 2 t (ix2 (0 : Fin 1) q)
      = V c (Pipeline.arrRef spec4 2) (ix2 (0 : Fin 1) ((((cfg4.win 3).blk t).view.emb (ix2 p q)) 1)) := by
  obtain ⟨e0, e1, e2, e3, e4, e5, e6, e7⟩ := idx_facts4 t
  show V c (Pipeline.arrRef spec4 2) (((cfg4.win 2).blk t).view.emb (ix2 (0 : Fin 1) q)) = _
  refine congrArg (V c (Pipeline.arrRef spec4 2)) (funext fun a => Fin.ext ?_)
  match a with
  | ⟨0, _⟩ => show win4_2.index t (0 : Fin 2) * 1 + 1 * 0 = 0; omega
  | ⟨1, _⟩ => show win4_2.index t (1 : Fin 2) * 1 + 1 * q.val = win4_3.index t (1 : Fin 2) * 1 + 1 * q.val; omega

/-- What the one point writes back is the whole head of the arrays the region finds. -/
theorem flushed4 (c : Dev nD) (t : Fin cfg4.N) :
    (dat4 V c).flushed 3 t = ((cfg4.win 3).blk t).view.read (Elt Ideal)
      (headAt (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero zeroOffsets4]
  simp only [View.ld_unit_zero (S := S256x128) zeroOffsets4, View.ld_unit_zero (S := S128x1) zeroOffsets4,
    View.ld_unit_zero (S := S1x1) zeroOffsets4]
  funext j
  obtain ⟨p, q, rfl⟩ : ∃ (p : Fin 256) (q : Fin 1), j = ix2 p q := ⟨j 0, j 1, eq_ix2 j⟩
  show k4_pay1 (iblk4 V c 0 t) (iblk4 V c 1 t) (iblk4 V c 2 t) (ix2 p q)
    = headAt (V c (Pipeline.arrRef spec4 0)) (V c (Pipeline.arrRef spec4 1)) (V c (Pipeline.arrRef spec4 2))
        (((cfg4.win 3).blk t).view.emb (ix2 p q))
  refine (pay4_apply _ _ _ p q).trans ?_
  unfold headAt
  rw [read4_2 V c t p q]
  refine congrArg (FloatOps.addf (F := Ideal) (φ := .f32) · _) (Finset.sum_congr rfl fun k _ => ?_)
  rw [read4_0 V c t p q k, read4_1 V c t p q k]

/-- An index is in the point's output block iff each coordinate is in the block's range on its axis. -/
theorem mem_blk4 (t : Fin cfg4.N) (i : S256x1.Idx) :
    i ∈ ((cfg4.win 3).blk t).view.set ↔ ∀ a : Fin 2, win4_3.index t a * S256x1.size a ≤ (i a).val
      ∧ (i a).val < win4_3.index t a * S256x1.size a + S256x1.size a := by
  show i ∈ ((View.whole main_v73).slice (win4_3.rect t)).set ↔ _
  rw [View.set_slice_whole, Rect.mem_set_unit]
  exact Iff.rfl

/-- The one block is the whole array. -/
theorem cover4 (i : S256x1.Idx) :
    ∃ t : Fin cfg4.N, (cfg4.win 3).flush t = true ∧ i ∈ ((cfg4.win 3).blk t).view.set := by
  have hi0 : (i 0).val < 256 := (i 0).isLt
  have hi1 : (i 1).val < 1 := (i 1).isLt
  obtain ⟨e0, e1, e2, e3, e4, e5, e6, e7⟩ := idx_facts4 t4_0
  refine ⟨t4_0, flush4_3 t4_0, ?_⟩
  rw [mem_blk4]
  intro a
  match a with
  | ⟨0, _⟩ => show win4_3.index t4_0 (0 : Fin 2) * 256 ≤ (i 0).val ∧ (i 0).val < win4_3.index t4_0 (0 : Fin 2) * 256 + 256; omega
  | ⟨1, _⟩ => show win4_3.index t4_0 (1 : Fin 2) * 1 ≤ (i 1).val ∧ (i 1).val < win4_3.index t4_0 (1 : Fin 2) * 1 + 1; omega

/-- The output array after the region: the whole head of the three arrays the region finds. -/
theorem final4 (c : Dev nD) :
    (dat4 V c).arrAt 3 cfg4.N = headAt (V c (Pipeline.arrRef spec4 0)) (V c (Pipeline.arrRef spec4 1))
      (V c (Pipeline.arrRef spec4 2)) :=
  (dat4 V c).arrAt_eq_of_cover 3 _ (fun t _ => flushed4 V c t) cover4

end Cert.KernelIdeal.Regions

end
-- ==== Proof.LibDenseSpellings.lean ====
/-
  A dense layer in a kernel body's spelling and in the host's, as whole arrays.

  A kernel body multiplies its `n` rows into a zero accumulator and adds the bias, held as a `1 × cout` row,
  repeated down the rows; the host takes a general product and adds the bias vector broadcast first along dimension 1
  and then along both dimensions. On exact values entry `(p, q)` of either is the sum over `k` of the input at
  `(p, k)` times the weight at `(k, q)`, plus the bias at `q`: the two arrays are equal. The operands of the two
  products may be held in different float formats as long as they agree entry by entry (narrowing an exact value to a
  shorter format does not change it). For any extents.
-/
import proofs.«133298_j60258391163406_1_alg».proof.Proof.LibPlainDot
import proofs.«133298_j60258391163406_1_alg».proof.Proof.LibRowBroadcasts
import Idealize.ShloMosaic.Lib.Pipeline.Value
import Idealize.ShloMosaic.Lib.ValueIdx
import Idealize.ShloMosaic.PureOps.Ideal.Laws

noncomputable section

open scoped BigOperators

namespace Cert.Lib.DenseSpellings

open Idealize.ShloMosaic Idealize.ShloMosaic.ValueIdx Cert.Lib

variable {n cin cout : Nat}

/-- A length-`cout` vector broadcast along dimension 1 to a `1 × cout` row reads, at `(0, q)`, the vector at `q`. -/
theorem dimVec_apply {α : Type} (v : (⟨1, ![cout]⟩ : Shape).Idx → α)
    (h1 : (⟨1, ![cout]⟩ : Shape).BroadcastsInDim ⟨2, ![1, cout]⟩ ![1]) (u : Fin 1) (q : Fin cout) :
    broadcastInDim ⟨2, ![1, cout]⟩ ![1] h1 v (ix2 u q) = v (ix1 q) :=
  broadcastInDim_apply _ h1 v (ix2 u q) (ix1 q) fun ax => by
    match ax with
    | ⟨0, _⟩ =>
      show q.val = if cout = 1 then 0 else q.val
      split
      · have := q.isLt; omega
      · rfl

/-- The kernel body's dense layer is the host's, when their operands agree entry by entry and the body's bias row is
    the host's bias vector laid out as a row. -/
theorem kernel_eq_host
    (wf : DotDims.WF ⟨2, ![n, cin]⟩ ⟨2, ![cin, cout]⟩ ⟨2, ![n, cout]⟩ [1] [0] [0] [1] [] [])
    {φ₁ φ₂ ψ₁ ψ₂ : FTy} (X : FVec Ideal ⟨2, ![n, cin]⟩ φ₁) (W : FVec Ideal ⟨2, ![cin, cout]⟩ φ₂)
    (X' : FVec Ideal ⟨2, ![n, cin]⟩ ψ₁) (W' : FVec Ideal ⟨2, ![cin, cout]⟩ ψ₂)
    (hX : ∀ i, X i = X' i) (hW : ∀ i, W i = W' i)
    (bias : FVec Ideal ⟨1, ![cout]⟩ .f32) (row : FVec Ideal ⟨2, ![1, cout]⟩ .f32)
    (h1 : (⟨1, ![cout]⟩ : Shape).BroadcastsInDim ⟨2, ![1, cout]⟩ ![1])
    (hrow : row = broadcastInDim ⟨2, ![1, cout]⟩ ![1] h1 bias)
    (hb : (⟨2, ![1, cout]⟩ : Shape).Broadcasts ⟨2, ![n, cout]⟩)
    (h2 : (⟨2, ![1, cout]⟩ : Shape).BroadcastsInDim ⟨2, ![n, cout]⟩ ![0, 1]) :
    addf (matmul (PlainDot.dims wf) none X W (constant ⟨2, ![n, cout]⟩ .f32 0x00000000#32))
        (broadcastTo ⟨2, ![n, cout]⟩ row hb)
      = addf (Host.dotGeneral (PlainDot.dims wf) none X' W')
          (broadcastInDim ⟨2, ![n, cout]⟩ ![0, 1] h2 (broadcastInDim ⟨2, ![1, cout]⟩ ![1] h1 bias)) := by
  funext j
  obtain ⟨p, q, rfl⟩ : ∃ (p : Fin n) (q : Fin cout), j = ix2 p q := ⟨j 0, j 1, eq_ix2 j⟩
  show matmul (PlainDot.dims wf) none X W (constant ⟨2, ![n, cout]⟩ .f32 0x00000000#32) (ix2 p q)
      + broadcastTo ⟨2, ![n, cout]⟩ row hb (ix2 p q)
    = Host.dotGeneral (PlainDot.dims wf) none X' W' (ix2 p q)
      + broadcastInDim ⟨2, ![n, cout]⟩ ![0, 1] h2 (broadcastInDim ⟨2, ![1, cout]⟩ ![1] h1 bias) (ix2 p q)
  rw [PlainDot.matmul_zero_apply wf none X W p q, PlainDot.dotGeneral_apply wf none X' W' p q,
    Rows.bcastRow_apply row hb p q, Rows.dimRow_apply _ h2 p q, hrow]
  refine congrArg (· + _) (Finset.sum_congr rfl fun k _ => ?_)
  rw [hX, hW]

end Cert.Lib.DenseSpellings

end
-- ==== Proof.StageLaws.lean ====
/-
  The regions' whole-array functions in the host's operations.

  A region's output array was read entry by entry: a row of one array against a column of another, or
  max(agg + h · d + b, 0) with the column d read at the entry's row and the bias row b at its column. The host spells
  the same arrays with its own operations: the general product with the plain dimension numbers; the column as a
  length-n vector broadcast along dimension 0 and then along both, where the kernel's program reshapes the vector to
  n × 1; the bias as a vector broadcast along dimension 1 and then along both, where the kernel's program reshapes it
  to a 1 × n row; the zero as a scalar broadcast. Entry by entry the two spellings read the same elements, so the
  arrays are equal — over the extended reals, with no finiteness.
-/
import proofs.«133298_j60258391163406_1_alg».proof.Proof.RegionProducts
import proofs.«133298_j60258391163406_1_alg».proof.Proof.RegionCombines
import proofs.«133298_j60258391163406_1_alg».proof.Proof.RegionHead
import proofs.«133298_j60258391163406_1_alg».proof.Proof.LibPlainDot
import proofs.«133298_j60258391163406_1_alg».proof.Proof.LibKeepdims
import proofs.«133298_j60258391163406_1_alg».proof.Proof.LibRowBroadcasts
import proofs.«133298_j60258391163406_1_alg».proof.Proof.LibDenseSpellings
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.StageLaws

open Cert.KernelIdeal Cert.KernelIdeal.Regions Cert.Lib
open Idealize.ShloMosaic Idealize.ShloMosaic.TcCoe Idealize.ShloMosaic.ValueIdx

/-- Rows against columns is the host's general product with the plain dimension numbers. -/
theorem rowsTimes_eq (wf : DotDims.WF S100000x128 S128x128 S100000x128 [1] [0] [0] [1] [] [])
    (X : FVec Ideal S100000x128 .f32) (W : FVec Ideal S128x128 .f32) :
    rowsTimes X W = Host.dotGeneral (PlainDot.dims wf) none X W := by
  funext i
  obtain ⟨p, q, rfl⟩ : ∃ (p : Fin 100000) (q : Fin 128), i = ix2 p q := ⟨i 0, i 1, eq_ix2 i⟩
  exact (PlainDot.dotGeneral_apply wf none X W p q).symm

/-- A length-`a` vector broadcast along dimension 0 to an `a × 1` column reads, at `(p, ·)`, the vector at `p`. -/
theorem dimColumn_apply {α : Type} {a : Nat} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply _ h v (ix2 p u) (ix1 p) fun ax => by
    match ax with
    | ⟨0, _⟩ =>
      show p.val = if a = 1 then 0 else p.val
      split
      · have := p.isLt; omega
      · rfl

/-- The combine of the aggregate, the product, the reshaped column of a vector `d` and the reshaped row of a vector `b`
    is the host's elementwise expression over its own broadcasts of `d` and `b`. -/
theorem combineAt_eq (A H : FVec Ideal S100000x128 .f32) (d : FVec Ideal S100000 .f32) (b : FVec Ideal S128 .f32)
    (hc : S100000.ShapeCasts S100000x1) (hr : S128.ShapeCasts S1x128)
    (h0 : S100000.BroadcastsInDim S100000x1 ![0]) (h01 : S100000x1.BroadcastsInDim S100000x128 ![0, 1])
    (h1 : S128.BroadcastsInDim S1x128 ![1]) (h01' : S1x128.BroadcastsInDim S100000x128 ![0, 1])
    (hs : S_.BroadcastsInDim S100000x128 ![]) :
    combineAt A H (shapeCast S100000x1 d hc) (shapeCast S1x128 b hr)
      = maximumf (addf (addf A (mulf H (broadcastInDim S100000x128 ![0, 1] h01 (broadcastInDim S100000x1 ![0] h0 d))))
          (broadcastInDim S100000x128 ![0, 1] h01' (broadcastInDim S1x128 ![1] h1 b)))
        (broadcastInDim S100000x128 ![] hs (constant S_ .f32 0x00000000#32)) := by
  funext i
  obtain ⟨p, q, rfl⟩ : ∃ (p : Fin 100000) (q : Fin 128), i = ix2 p q := ⟨i 0, i 1, eq_ix2 i⟩
  have e1 : shapeCast S100000x1 d hc (ix2 p (0 : Fin 1)) = d (ix1 p) := Keepdims.col_apply d hc p 0
  have e2 : broadcastInDim S100000x128 ![0, 1] h01 (broadcastInDim S100000x1 ![0] h0 d) (ix2 p q) = d (ix1 p) :=
    (Rows.dimCol_apply _ h01 p q).trans (dimColumn_apply d h0 p 0)
  have e3 : shapeCast S1x128 b hr (ix2 (0 : Fin 1) q) = b (ix1 q) := by
    rw [Rows.castRow_eq_dimRow b hr h1]; exact DenseSpellings.dimVec_apply b h1 0 q
  have e4 : broadcastInDim S100000x128 ![0, 1] h01' (broadcastInDim S1x128 ![1] h1 b) (ix2 p q) = b (ix1 q) :=
    (Rows.dimRow_apply _ h01' p q).trans (DenseSpellings.dimVec_apply b h1 0 q)
  have e5 : broadcastInDim S100000x128 ![] hs (constant (F := Ideal) S_ .f32 0x00000000#32) (ix2 p q)
      = FloatOps.ofBits .f32 0x00000000#32 :=
    broadcastInDim_apply _ hs _ (ix2 p q) (fun a => a.elim0) (fun a => a.elim0)
  show FloatOps.maximumf (F := Ideal) (φ := .f32) (FloatOps.addf (F := Ideal) (φ := .f32) (FloatOps.addf (F := Ideal) (φ := .f32) (A (ix2 p q))
        (FloatOps.mulf (F := Ideal) (φ := .f32) (H (ix2 p q)) (shapeCast S100000x1 d hc (ix2 p (0 : Fin 1)))))
        (shapeCast S1x128 b hr (ix2 (0 : Fin 1) q))) (FloatOps.ofBits .f32 0x00000000#32)
    = FloatOps.maximumf (F := Ideal) (φ := .f32) (FloatOps.addf (F := Ideal) (φ := .f32) (FloatOps.addf (F := Ideal) (φ := .f32) (A (ix2 p q))
        (FloatOps.mulf (F := Ideal) (φ := .f32) (H (ix2 p q)) (broadcastInDim S100000x128 ![0, 1] h01 (broadcastInDim S100000x1 ![0] h0 d) (ix2 p q))))
        (broadcastInDim S100000x128 ![0, 1] h01' (broadcastInDim S1x128 ![1] h1 b) (ix2 p q)))
        (broadcastInDim S100000x128 ![] hs (constant (F := Ideal) S_ .f32 0x00000000#32) (ix2 p q))
  rw [e1, e2, e3, e4, e5]

/-- The head of the pooled features, the weight and the reshaped bias is the host's general product plus its own
    broadcasts of the bias. -/
theorem headAt_eq (wf : DotDims.WF S256x128 S128x1 S256x1 [1] [0] [0] [1] [] [])
    (P : FVec Ideal S256x128 .f32) (W : FVec Ideal S128x1 .f32) (b : FVec Ideal S1 .f32)
    (hc : S1.ShapeCasts S1x1) (h1 : S1.BroadcastsInDim S1x1 ![1]) (h01 : S1x1.BroadcastsInDim S256x1 ![0, 1]) :
    headAt P W (shapeCast S1x1 b hc)
      = addf (Host.dotGeneral (PlainDot.dims wf) none P W)
          (broadcastInDim S256x1 ![0, 1] h01 (broadcastInDim S1x1 ![1] h1 b)) := by
  funext i
  obtain ⟨p, q, rfl⟩ : ∃ (p : Fin 256) (q : Fin 1), i = ix2 p q := ⟨i 0, i 1, eq_ix2 i⟩
  have e1 : shapeCast S1x1 b hc (ix2 (0 : Fin 1) q) = b (ix1 q) := by
    rw [Rows.castRow_eq_dimRow b hc h1]; exact DenseSpellings.dimVec_apply b h1 0 q
  have e2 : broadcastInDim S256x1 ![0, 1] h01 (broadcastInDim S1x1 ![1] h1 b) (ix2 p q) = b (ix1 q) :=
    (Rows.dimRow_apply _ h01 p q).trans (DenseSpellings.dimVec_apply b h1 0 q)
  show FloatOps.addf (F := Ideal) (φ := .f32) (∑ k : Fin 128, P (ix2 p k) * W (ix2 k q)) (shapeCast S1x1 b hc (ix2 (0 : Fin 1) q))
    = FloatOps.addf (F := Ideal) (φ := .f32) (Host.dotGeneral (PlainDot.dims wf) none P W (ix2 p q))
        (broadcastInDim S256x1 ![0, 1] h01 (broadcastInDim S1x1 ![1] h1 b) (ix2 p q))
  rw [e1, e2, PlainDot.dotGeneral_apply wf none P W p q]

end Cert.KernelIdeal.StageLaws

end
-- ==== Proof.Boundaries.lean ====
/-
  The idealized kernel's result is the reference's last stage of the same arguments.

  The kernel's run is a fold of its buffer contents through four stretches of host operations and five regions. Read
  in order: the first stretch leaves the edge sources and destinations, the per-edge normalisation and the column of
  squared inverse-root degrees, which no later segment rewrites; each product region leaves the whole matrix product
  of the arrays it finds, which is the reference's general product; each stretch between regions gathers, scales and
  scatter-adds exactly as the reference does; each combine region leaves max(agg + h · d + b, 0), which is the
  reference's broadcast sum followed by its relu, the column and the bias row being the reference's broadcasts in
  another spelling; the last stretch pools as the reference does; and the head region leaves the product plus the bias,
  the reference's last three operations. The reference recomputes the degree normalisation in its second layer; the
  two computations are the same operations of the same edge list.
-/
import proofs.«133298_j60258391163406_1_alg».proof.Proof.Gen.KernelIdeal.Frame
import proofs.«133298_j60258391163406_1_alg».proof.Proof.Gen.ReferenceIdeal.Read
import proofs.«133298_j60258391163406_1_alg».proof.Proof.Keep
import proofs.«133298_j60258391163406_1_alg».proof.Proof.StageLaws
import Idealize.ShloMosaic.Lib.StableHlo.Run

set_option maxRecDepth 16384

noncomputable section

namespace Cert.Bridge

open Cert.KernelIdeal Cert.KernelIdeal.Gen Cert.KernelIdeal.Keep Cert.KernelIdeal.Regions Cert.KernelIdeal.StageLaws
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch -/

/-- Argument 0 is as launched when region 0 is entered. -/
theorem w1_arg0 : W1 m ρ c (Proc.devRef .tc main_arg0) = m ((c : Thread nD τ).loc main_arg0) :=
  (host0_keep (W0 m ρ c) main_arg0 (by decide)).trans rfl
/-- Argument 1 is as launched when region 0 is entered. -/
theorem w1_arg1 : W1 m ρ c (Proc.devRef .tc main_arg1) = m ((c : Thread nD τ).loc main_arg1) :=
  (host0_keep (W0 m ρ c) main_arg1 (by decide)).trans rfl
/-- Argument 2 is as launched when region 0 is entered. -/
theorem w1_arg2 : W1 m ρ c (Proc.devRef .tc main_arg2) = m ((c : Thread nD τ).loc main_arg2) :=
  (host0_keep (W0 m ρ c) main_arg2 (by decide)).trans rfl
/-- Argument 3 is as launched when region 0 is entered. -/
theorem w1_arg3 : W1 m ρ c (Proc.devRef .tc main_arg3) = m ((c : Thread nD τ).loc main_arg3) :=
  (host0_keep (W0 m ρ c) main_arg3 (by decide)).trans rfl
/-- Argument 4 is as launched when region 0 is entered. -/
theorem w1_arg4 : W1 m ρ c (Proc.devRef .tc main_arg4) = m ((c : Thread nD τ).loc main_arg4) :=
  (host0_keep (W0 m ρ c) main_arg4 (by decide)).trans rfl
/-- Argument 5 is as launched when region 0 is entered. -/
theorem w1_arg5 : W1 m ρ c (Proc.devRef .tc main_arg5) = m ((c : Thread nD τ).loc main_arg5) :=
  (host0_keep (W0 m ρ c) main_arg5 (by decide)).trans rfl
/-- Argument 6 is as launched when region 0 is entered. -/
theorem w1_arg6 : W1 m ρ c (Proc.devRef .tc main_arg6) = m ((c : Thread nD τ).loc main_arg6) :=
  (host0_keep (W0 m ρ c) main_arg6 (by decide)).trans rfl
/-- Argument 7 is as launched when region 0 is entered. -/
theorem w1_arg7 : W1 m ρ c (Proc.devRef .tc main_arg7) = m ((c : Thread nD τ).loc main_arg7) :=
  (host0_keep (W0 m ρ c) main_arg7 (by decide)).trans rfl
/-- Argument 8 is as launched when region 0 is entered. -/
theorem w1_arg8 : W1 m ρ c (Proc.devRef .tc main_arg8) = m ((c : Thread nD τ).loc main_arg8) :=
  (host0_keep (W0 m ρ c) main_arg8 (by decide)).trans rfl

/-- The edge sources, as the reference slices them. -/
theorem w1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl

/-- The edge destinations, as the reference slices them. -/
theorem w1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

/-- The per-edge normalisation: the inverse-root degree gathered at both ends and multiplied. -/
theorem w1_v27 : W1 m ρ c (Proc.devRef .tc main_v27) = Cert.ReferenceIdeal.Read.val_main_v26 (F := Ideal) (m ((c : Thread nD τ).loc main_arg1)) := by
  show StableHlo.after hostOps0 (W0 m ρ c) (Proc.devRef .tc main_v27) = _
  after_results_simp
  rfl

/-- The squared inverse-root degrees, laid out as a column. -/
theorem w1_v12 : W1 m ρ c (Proc.devRef .tc main_v12)
    = shapeCast S100000x1 (Cert.ReferenceIdeal.Read.val_main_v40 (F := Ideal) (m ((c : Thread nD τ).loc main_arg1))) shapeCasts_S100000_S100000x1 := by
  show StableHlo.after hostOps0 (W0 m ρ c) (Proc.devRef .tc main_v12) = _
  after_results_simp
  rfl

/-! ## Layer 1 -/

/-- Region 0 leaves the reference's first product. -/
theorem b28 : W2 m ρ c (Proc.devRef .tc main_v28) = Cert.ReferenceIdeal.Read.val_main_v4 (F := Ideal) (m ((c : Thread nD τ).loc main_arg0)) (m ((c : Thread nD τ).loc main_arg3)) := by
  refine (W2_arr m ρ c 2).trans ((final0 (V1 m ρ) c).trans ?_)
  show rowsTimes (W1 m ρ c (Proc.devRef .tc main_arg0)) (W1 m ρ c (Proc.devRef .tc main_arg3)) = _
  rw [w1_arg0, w1_arg3]
  exact rowsTimes_eq Cert.ReferenceIdeal.Facts₀.dot_S100000x128_S128x128_S100000x128_1_0_0_1_n_n_wf _ _

/-- The stretch after it leaves the reference's first aggregation. -/
theorem b41 : W3 m ρ c (Proc.devRef .tc main_v41) = Cert.ReferenceIdeal.Read.val_main_v39 (F := Ideal) (m ((c : Thread nD τ).loc main_arg0)) (m ((c : Thread nD τ).loc main_arg1)) (m ((c : Thread nD τ).loc main_arg3)) := by
  show StableHlo.after hostOps1 (W2 m ρ c) (Proc.devRef .tc main_v41) = _
  after_results_simp
  rw [b28, stable2 m ρ c main_v1 (by decide), stable2 m ρ c main_v3 (by decide), stable2 m ρ c main_v27 (by decide),
    w1_v1, w1_v3, w1_v27]
  rfl

/-- Region 1 leaves the reference's first layer after its relu. -/
theorem b43 : W4 m ρ c (Proc.devRef .tc main_v43) = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) := by
  refine (W4_arr m ρ c 4).trans ((final1 (V3 m ρ) c).trans ?_)
  show combineAt (W3 m ρ c (Proc.devRef .tc main_v41)) (W3 m ρ c (Proc.devRef .tc main_v28))
    (W3 m ρ c (Proc.devRef .tc main_v12)) (W3 m ρ c (Proc.devRef .tc main_v42)) = _
  have h28 : W3 m ρ c (Proc.devRef .tc main_v28) = Cert.ReferenceIdeal.Read.val_main_v4 (F := Ideal) (m ((c : Thread nD τ).loc main_arg0)) (m ((c : Thread nD τ).loc main_arg3)) :=
    (host1_keep (W2 m ρ c) main_v28 (by decide)).trans (b28 m ρ c)
  have h12 : W3 m ρ c (Proc.devRef .tc main_v12)
      = shapeCast S100000x1 (Cert.ReferenceIdeal.Read.val_main_v40 (F := Ideal) (m ((c : Thread nD τ).loc main_arg1))) shapeCasts_S100000_S100000x1 :=
    (stable3 m ρ c main_v12 (by decide)).trans (w1_v12 m ρ c)
  have h42 : W3 m ρ c (Proc.devRef .tc main_v42) = shapeCast S1x128 (m ((c : Thread nD τ).loc main_arg4)) shapeCasts_S128_S1x128 := by
    show StableHlo.after hostOps1 (W2 m ρ c) (Proc.devRef .tc main_v42) = _
    after_results_simp
    rw [stable2 m ρ c main_arg4 (by decide), w1_arg4]
    rfl
  rw [b41, h28, h12, h42]
  refine (combineAt_eq _ _ _ _ _ _ Cert.ReferenceIdeal.Facts₀.bcast_S100000_S100000x1_0 Cert.ReferenceIdeal.Facts₀.bcast_S100000x1_S100000x128_0_1
    Cert.ReferenceIdeal.Facts₀.bcast_S128_S1x128_1 Cert.ReferenceIdeal.Facts₀.bcast_S1x128_S100000x128_0_1 Cert.ReferenceIdeal.Facts₀.bcast_S_S100000x128).trans ?_
  rfl

/-! ## Layer 2 -/

/-- Region 2 leaves the reference's second product. -/
theorem b44 : W5 m ρ c (Proc.devRef .tc main_v44) = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((final2 (V4 m ρ) c).trans ?_)
  show rowsTimes (W4 m ρ c (Proc.devRef .tc main_v43)) (W4 m ρ c (Proc.devRef .tc main_arg5)) = _
  rw [b43, stable4 m ρ c main_arg5 (by decide), w1_arg5]
  exact rowsTimes_eq Cert.ReferenceIdeal.Facts₀.dot_S100000x128_S128x128_S100000x128_1_0_0_1_n_n_wf _ _

/-- The stretch after it leaves the reference's second aggregation. -/
theorem b57 : W6 m ρ c (Proc.devRef .tc main_v57) = Cert.ReferenceIdeal.Read.val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v57) = _
  after_results_simp
  rw [b44, stable5 m ρ c main_v1 (by decide), stable5 m ρ c main_v3 (by decide), stable5 m ρ c main_v27 (by decide),
    w1_v1, w1_v3, w1_v27]
  rfl

/-- Region 3 leaves the reference's second layer after its relu. -/
theorem b59 : W7 m ρ c (Proc.devRef .tc main_v59) = Cert.ReferenceIdeal.Read.val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 4).trans ((final3 (V6 m ρ) c).trans ?_)
  show combineAt (W6 m ρ c (Proc.devRef .tc main_v57)) (W6 m ρ c (Proc.devRef .tc main_v44))
    (W6 m ρ c (Proc.devRef .tc main_v12)) (W6 m ρ c (Proc.devRef .tc main_v58)) = _
  have h44 : W6 m ρ c (Proc.devRef .tc main_v44) = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
    (host3_keep (W5 m ρ c) main_v44 (by decide)).trans (b44 m ρ c)
  have h12 : W6 m ρ c (Proc.devRef .tc main_v12)
      = shapeCast S100000x1 (Cert.ReferenceIdeal.Read.val_main_v40 (F := Ideal) (m ((c : Thread nD τ).loc main_arg1))) shapeCasts_S100000_S100000x1 :=
    (stable6 m ρ c main_v12 (by decide)).trans (w1_v12 m ρ c)
  have h58 : W6 m ρ c (Proc.devRef .tc main_v58) = shapeCast S1x128 (m ((c : Thread nD τ).loc main_arg6)) shapeCasts_S128_S1x128 := by
    show StableHlo.after hostOps3 (W5 m ρ c) (Proc.devRef .tc main_v58) = _
    after_results_simp
    rw [stable5 m ρ c main_arg6 (by decide), w1_arg6]
    rfl
  rw [b57, h44, h12, h58]
  refine (combineAt_eq _ _ _ _ _ _ Cert.ReferenceIdeal.Facts₀.bcast_S100000_S100000x1_0 Cert.ReferenceIdeal.Facts₀.bcast_S100000x1_S100000x128_0_1
    Cert.ReferenceIdeal.Facts₀.bcast_S128_S1x128_1 Cert.ReferenceIdeal.Facts₀.bcast_S1x128_S100000x128_0_1 Cert.ReferenceIdeal.Facts₀.bcast_S_S100000x128).trans ?_
  rfl

/-! ## Pooling and the head -/

/-- The last stretch leaves the reference's pooled means. -/
theorem b71 : W8 m ρ c (Proc.devRef .tc main_v71) = Cert.ReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W7 m ρ c) (Proc.devRef .tc main_v71) = _
  after_results_simp
  rw [b59, stable7 m ρ c main_arg2 (by decide), w1_arg2]
  rfl

/-- … and the head's bias laid out as a 1 × 1 row. -/
theorem b72 : W8 m ρ c (Proc.devRef .tc main_v72) = shapeCast S1x1 (m ((c : Thread nD τ).loc main_arg8)) shapeCasts_S1_S1x1 := by
  show StableHlo.after hostOps4 (W7 m ρ c) (Proc.devRef .tc main_v72) = _
  after_results_simp
  rw [stable7 m ρ c main_arg8 (by decide), w1_arg8]
  rfl

/-- THE RESULT: region 4 leaves the reference's last stage of the same nine arguments. -/
theorem result_eq : W9 m ρ c (Proc.devRef .tc main_v73)
    = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 3).trans ((final4 (V8 m ρ) c).trans ?_)
  show headAt (W8 m ρ c (Proc.devRef .tc main_v71)) (W8 m ρ c (Proc.devRef .tc main_arg7))
    (W8 m ρ c (Proc.devRef .tc main_v72)) = _
  rw [b71, b72, stable8 m ρ c main_arg7 (by decide), w1_arg7]
  refine (headAt_eq Cert.ReferenceIdeal.Facts₀.dot_S256x128_S128x1_S256x1_1_0_0_1_n_n_wf _ _ _ _ Cert.ReferenceIdeal.Facts₀.bcast_S1_S1x1_1
    Cert.ReferenceIdeal.Facts₀.bcast_S1x1_S256x1_0_1).trans ?_
  rfl

end Cert.Bridge

end
-- ==== Proof.lean ====
/-
  A two-layer graph convolution with mean pooling and a linear head, against its reference.

  The kernel's program computes the degree normalisation once on the host, then runs each layer as a row-blocked
  matrix product (twenty blocks of 5000 rows against the whole 128 × 128 weight), a gather of the product's rows at the
  edge sources scaled by the per-edge normalisation and scatter-added at the edge destinations on the host, and a
  row-blocked combine max(agg + h · d + b, 0) with d the column of squared inverse-root degrees; it pools by a
  scatter-add over the graph labels divided by the clipped counts on the host, and applies the linear head in one block.
  The reference does the same with general products, broadcasts and relu on the host, recomputing the normalisation in
  its second layer. On the extended reals a narrowing of a float format is the identity and a product into a zero
  accumulator is the plain sum, so stage by stage the two programs leave the same arrays: no law beyond reading each
  array entry by entry is used, and the precondition is never opened.

  The three frames are the generated ones (the reference's is its generated run with the result dropped); the kernel's
  idealization rewrote no operation, so there is nothing to preserve; the value claim is the kernel's run with its
  result named, that result identified with the reference's last stage of the same arguments, and the reference's run.
-/
import proofs.«133298_j60258391163406_1_alg».proof.Defs
import proofs.«133298_j60258391163406_1_alg».proof.Proof.Gen.Kernel
import proofs.«133298_j60258391163406_1_alg».proof.Proof.Gen.Kernel.Skeleton
import proofs.«133298_j60258391163406_1_alg».proof.Proof.Gen.Kernel.Launch
import proofs.«133298_j60258391163406_1_alg».proof.Proof.Gen.Kernel.Points
import proofs.«133298_j60258391163406_1_alg».proof.Proof.Gen.Kernel.Frame
import proofs.«133298_j60258391163406_1_alg».proof.Proof.Gen.KernelIdeal
import proofs.«133298_j60258391163406_1_alg».proof.Proof.Gen.KernelIdeal.Skeleton
import proofs.«133298_j60258391163406_1_alg».proof.Proof.Gen.KernelIdeal.Launch
import proofs.«133298_j60258391163406_1_alg».proof.Proof.Gen.KernelIdeal.Points
import proofs.«133298_j60258391163406_1_alg».proof.Proof.Gen.KernelIdeal.Frame
import proofs.«133298_j60258391163406_1_alg».proof.Proof.Gen.ReferenceIdeal
import proofs.«133298_j60258391163406_1_alg».proof.Proof.Gen.Pre_finite_inputs
import proofs.«133298_j60258391163406_1_alg».proof.Proof.Gen.ReferenceIdeal.Run
import proofs.«133298_j60258391163406_1_alg».proof.Proof.Gen.ReferenceIdeal.Read
import proofs.«133298_j60258391163406_1_alg».proof.Proof.KernelRun
import proofs.«133298_j60258391163406_1_alg».proof.Proof.Boundaries
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: the idealization is the program's own text read on the extended reals. -/
theorem preserves : Cert.preserves_Kernel_KernelIdeal := trivial

/-- From memories agreeing on the nine arguments both programs end with the reference's last stage of those
    arguments in their result buffers. -/
theorem algebraic : Cert.algebraic_KernelIdeal_ReferenceIdeal := by
  intro m ρ m' ρ' _ hagree
  refine ⟨fun c => Cert.KernelIdeal.Gen.W9 m ρ c (Proc.devRef .tc Cert.KernelIdeal.main_v73),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  show Cert.ReferenceIdeal.Value.res_main_v109 m' c
    = Cert.KernelIdeal.Gen.W9 m ρ c (Proc.devRef .tc Cert.KernelIdeal.main_v73)
  rw [Cert.ReferenceIdeal.Read.val_main_v109_eq, Cert.Bridge.result_eq m ρ c, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
